-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 69
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x64, .bf16⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .bf16⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .bf16⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Entry.lean ====
/-
  One entry of the layer's output, as a function of rows.

  A node's output row is the sum of three affine images: of the node's own feature row, and, each
  weighted by one half, of the mean row of its in-neighbours and of the mean row of its out-neighbours.
  Entry `j` of the affine image of a row `r` under a weight matrix `W` and a bias `b` is
  `(∑ k, r k · W k j) + b j`; entry `j` of the output row is

      (affine x W₀ b₀ j + ½ · affine a W₁ b₁ j) + ½ · affine c W₂ b₂ j,

  in exactly that grouping, over the extended reals.  The one half is kept as the f32 word that denotes it:
  the same word stands on both sides and is never evaluated.
-/
import Idealize.ShloMosaic.PureOps.Ideal

noncomputable section

namespace Cert.Entry

open Idealize.ShloMosaic

/-- The weight of each neighbour term: the f32 word of one half. -/
def half : EReal := Ideal.ofBits .f32 0x3F000000#32

/-- Entry `j` of the affine image `r · W + b` of a row of 64 features. -/
def affine (r : Fin 64 → EReal) (W : Fin 64 → Fin 64 → EReal) (b : Fin 64 → EReal) (j : Fin 64) : EReal :=
  (∑ k : Fin 64, r k * W k j) + b j

/-- Entry `j` of a node's output row, from the node's own row `x`, its in-neighbour mean row `a` and its
    out-neighbour mean row `c`. -/
def entry (x a c : Fin 64 → EReal) (W₀ W₁ W₂ : Fin 64 → Fin 64 → EReal) (b₀ b₁ b₂ : Fin 64 → EReal)
    (j : Fin 64) : EReal :=
  (affine x W₀ b₀ j + half * affine a W₁ b₁ j) + half * affine c W₂ b₂ j

end Cert.Entry

end
-- ==== Proof.BlockPlace.lean ====
/-
  Where the kernel's blocks sit in their arrays.

  The kernel runs over 20 grid points; point `t` holds rows `5000 t … 5000 t + 4999` of the three row arrays
  (the nodes' features and their two neighbour-mean arrays), the whole of each weight matrix and of each bias row,
  and writes back rows `5000 t … 5000 t + 4999` of the output.  So row `p` of a row block at point `t` is row
  `5000 t + p` of its array, and an entry of a weight or bias block is the same entry of its array.  `layer` is the
  output as ONE whole-array function: its entry `(P, j)` is `Entry.entry` of row `P` of the three row arrays.
-/
import proofs.«148384_j27152783245350_2_alg».proof.Proof.Gen.KernelIdeal.Value
import proofs.«148384_j27152783245350_2_alg».proof.Proof.Entry
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The layer as one function of whole arrays: entry `(P, j)` from row `P` of the features `x` and of the two
    neighbour-mean arrays `a`, `c`, the three weight matrices and the three bias rows. -/
def layer (x a c : S100000x64.Idx → EReal) (w₀ w₁ w₂ : S64x64.Idx → EReal) (b₀ b₁ b₂ : S1x64.Idx → EReal) :
    S100000x64.Idx → EReal := fun i =>
  Cert.Entry.entry (fun k => x (ix2 (i 0) k)) (fun k => a (ix2 (i 0) k)) (fun k => c (ix2 (i 0) k))
    (fun k j => w₀ (ix2 k j)) (fun k j => w₁ (ix2 k j)) (fun k j => w₂ (ix2 k j))
    (fun j => b₀ (ix2 (0 : Fin 1) j)) (fun j => b₁ (ix2 (0 : Fin 1) j)) (fun j => b₂ (ix2 (0 : Fin 1) j)) (i 1)

theorem layer_apply (x a c : S100000x64.Idx → EReal) (w₀ w₁ w₂ : S64x64.Idx → EReal) (b₀ b₁ b₂ : S1x64.Idx → EReal)
    (P : Fin 100000) (j : Fin 64) :
    layer x a c w₀ w₁ w₂ b₀ b₁ b₂ (ix2 P j)
      = Cert.Entry.entry (fun k => x (ix2 P k)) (fun k => a (ix2 P k)) (fun k => c (ix2 P k))
          (fun k j => w₀ (ix2 k j)) (fun k j => w₁ (ix2 k j)) (fun k j => w₂ (ix2 k j))
          (fun j => b₀ (ix2 (0 : Fin 1) j)) (fun j => b₁ (ix2 (0 : Fin 1) j)) (fun j => b₂ (ix2 (0 : Fin 1) j)) j := rfl

/-! ## Where each window's block sits at a point -/

/-- The printed index maps, decided over the 20 points: the three row windows and the output window sit at block row
    `t`, column 0; the weight and bias windows always at block `(0, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `p` of the block at point `t` is row `5000 t + p` of the array. -/
def row (t : Fin cfg0.N) (p : Fin 5000) : Fin 100000 :=
  ⟨t.val * 5000 + p.val, by have ht : t.val < 20 := t.isLt; have := p.isLt; omega⟩

/-! The position in its array of an entry of each window's block (a block's coordinate on an axis is the block index
    times the block's extent plus the coordinate inside the block). -/

theorem emb_rows0 (t : Fin cfg0.N) (p : Fin 5000) (k : Fin 64) :
    ((cfg0.win 0).blk t).view.emb (ix2 p k) = ix2 (row t p) k := by
  have e := block_index t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

theorem emb_rows1 (t : Fin cfg0.N) (p : Fin 5000) (k : Fin 64) :
    ((cfg0.win 1).blk t).view.emb (ix2 p k) = ix2 (row t p) k := by
  have e := block_index t
  funext a; apply Fin.ext
  match a with
  | ⟨0, _⟩ => show win0_1.index t (0 : Fin 2) * 5000 + 1 * p.val = t.val * 5000 + p.val; omega
  | ⟨1, _⟩ => show win0_1.index t (1 : Fin 2) * 64 + 1 * k.val = k.val; omega

theorem emb_rows2 (t : Fin cfg0.N) (p : Fin 5000) (k : Fin 64) :
    ((cfg0.win 2).blk t).view.emb (ix2 p k) = ix2 (row t p) k := by
  have e := block_index t
  funext a; apply Fin.ext
  match a with
  | ⟨0, _⟩ => show win0_2.index t (0 : Fin 2) * 5000 + 1 * p.val = t.val * 5000 + p.val; omega
  | ⟨1, _⟩ => show win0_2.index t (1 : Fin 2) * 64 + 1 * k.val = k.val; omega

theorem emb_rows9 (t : Fin cfg0.N) (p : Fin 5000) (k : Fin 64) :
    ((cfg0.win 9).blk t).view.emb (ix2 p k) = ix2 (row t p) k := by
  have e := block_index t
  funext a; apply Fin.ext
  match a with
  | ⟨0, _⟩ => show win0_9.index t (0 : Fin 2) * 5000 + 1 * p.val = t.val * 5000 + p.val; omega
  | ⟨1, _⟩ => show win0_9.index t (1 : Fin 2) * 64 + 1 * k.val = k.val; omega

theorem emb_weights3 (t : Fin cfg0.N) (k j : Fin 64) :
    ((cfg0.win 3).blk t).view.emb (ix2 k j) = ix2 k j := by
  have e := block_index t
  funext a; apply Fin.ext
  match a with
  | ⟨0, _⟩ => show win0_3.index t (0 : Fin 2) * 64 + 1 * k.val = k.val; omega
  | ⟨1, _⟩ => show win0_3.index t (1 : Fin 2) * 64 + 1 * j.val = j.val; omega

theorem emb_weights5 (t : Fin cfg0.N) (k j : Fin 64) :
    ((cfg0.win 5).blk t).view.emb (ix2 k j) = ix2 k j := by
  have e := block_index t
  funext a; apply Fin.ext
  match a with
  | ⟨0, _⟩ => show win0_5.index t (0 : Fin 2) * 64 + 1 * k.val = k.val; omega
  | ⟨1, _⟩ => show win0_5.index t (1 : Fin 2) * 64 + 1 * j.val = j.val; omega

theorem emb_weights7 (t : Fin cfg0.N) (k j : Fin 64) :
    ((cfg0.win 7).blk t).view.emb (ix2 k j) = ix2 k j := by
  have e := block_index t
  funext a; apply Fin.ext
  match a with
  | ⟨0, _⟩ => show win0_7.index t (0 : Fin 2) * 64 + 1 * k.val = k.val; omega
  | ⟨1, _⟩ => show win0_7.index t (1 : Fin 2) * 64 + 1 * j.val = j.val; omega

theorem emb_bias4 (t : Fin cfg0.N) (u : Fin 1) (j : Fin 64) :
    ((cfg0.win 4).blk t).view.emb (ix2 u j) = ix2 u j := by
  have e := block_index t
  funext a; apply Fin.ext
  match a with
  | ⟨0, _⟩ => show win0_4.index t (0 : Fin 2) * 1 + 1 * u.val = u.val; omega
  | ⟨1, _⟩ => show win0_4.index t (1 : Fin 2) * 64 + 1 * j.val = j.val; omega

theorem emb_bias6 (t : Fin cfg0.N) (u : Fin 1) (j : Fin 64) :
    ((cfg0.win 6).blk t).view.emb (ix2 u j) = ix2 u j := by
  have e := block_index t
  funext a; apply Fin.ext
  match a with
  | ⟨0, _⟩ => show win0_6.index t (0 : Fin 2) * 1 + 1 * u.val = u.val; omega
  | ⟨1, _⟩ => show win0_6.index t (1 : Fin 2) * 64 + 1 * j.val = j.val; omega

theorem emb_bias8 (t : Fin cfg0.N) (u : Fin 1) (j : Fin 64) :
    ((cfg0.win 8).blk t).view.emb (ix2 u j) = ix2 u j := by
  have e := block_index t
  funext a; apply Fin.ext
  match a with
  | ⟨0, _⟩ => show win0_8.index t (0 : Fin 2) * 1 + 1 * u.val = u.val; omega
  | ⟨1, _⟩ => show win0_8.index t (1 : Fin 2) * 64 + 1 * j.val = j.val; omega

end Cert.KernelIdeal.Whole

end
-- ==== Proof.BlockRead.lean ====
/-
  Each input window's block at a grid point, read off the array the region finds.

  A block is its array read through the block's rectangle, so an entry of a block is the array's entry at the
  position the entry has in the array: row `5000 t + p` for the three row windows, the same entry for the weight and
  bias windows; this holds of any array.  The array a window's blocks are cut from, as the region finds it, is
  named `found` and kept closed, so that what the host computed into it is opened in one place only.
-/
import proofs.«148384_j27152783245350_2_alg».proof.Proof.BlockPlace

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## A block of any array, read at an entry -/

theorem rows_block0 (c : Dev nD) (A : Buf (Elt Ideal) ((c : Thread nD τ).loc (Pipeline.arrRef spec0 0))) (t : Fin cfg0.N) (p : Fin 5000) (k : Fin 64) :
    ((cfg0.win 0).blk t).view.read (Elt Ideal) A (ix2 p k) = A (ix2 (row t p) k) := by
  show A (((cfg0.win 0).blk t).view.emb (ix2 p k)) = _
  rw [emb_rows0]

theorem rows_block1 (c : Dev nD) (A : Buf (Elt Ideal) ((c : Thread nD τ).loc (Pipeline.arrRef spec0 1))) (t : Fin cfg0.N) (p : Fin 5000) (k : Fin 64) :
    ((cfg0.win 1).blk t).view.read (Elt Ideal) A (ix2 p k) = A (ix2 (row t p) k) := by
  show A (((cfg0.win 1).blk t).view.emb (ix2 p k)) = _
  rw [emb_rows1]

theorem rows_block2 (c : Dev nD) (A : Buf (Elt Ideal) ((c : Thread nD τ).loc (Pipeline.arrRef spec0 2))) (t : Fin cfg0.N) (p : Fin 5000) (k : Fin 64) :
    ((cfg0.win 2).blk t).view.read (Elt Ideal) A (ix2 p k) = A (ix2 (row t p) k) := by
  show A (((cfg0.win 2).blk t).view.emb (ix2 p k)) = _
  rw [emb_rows2]

theorem weights_block3 (c : Dev nD) (A : Buf (Elt Ideal) ((c : Thread nD τ).loc (Pipeline.arrRef spec0 3))) (t : Fin cfg0.N) (k j : Fin 64) :
    ((cfg0.win 3).blk t).view.read (Elt Ideal) A (ix2 k j) = A (ix2 k j) := by
  show A (((cfg0.win 3).blk t).view.emb (ix2 k j)) = _
  rw [emb_weights3]

theorem weights_block5 (c : Dev nD) (A : Buf (Elt Ideal) ((c : Thread nD τ).loc (Pipeline.arrRef spec0 5))) (t : Fin cfg0.N) (k j : Fin 64) :
    ((cfg0.win 5).blk t).view.read (Elt Ideal) A (ix2 k j) = A (ix2 k j) := by
  show A (((cfg0.win 5).blk t).view.emb (ix2 k j)) = _
  rw [emb_weights5]

theorem weights_block7 (c : Dev nD) (A : Buf (Elt Ideal) ((c : Thread nD τ).loc (Pipeline.arrRef spec0 7))) (t : Fin cfg0.N) (k j : Fin 64) :
    ((cfg0.win 7).blk t).view.read (Elt Ideal) A (ix2 k j) = A (ix2 k j) := by
  show A (((cfg0.win 7).blk t).view.emb (ix2 k j)) = _
  rw [emb_weights7]

theorem bias_block4 (c : Dev nD) (A : Buf (Elt Ideal) ((c : Thread nD τ).loc (Pipeline.arrRef spec0 4))) (t : Fin cfg0.N) (u : Fin 1) (j : Fin 64) :
    ((cfg0.win 4).blk t).view.read (Elt Ideal) A (ix2 u j) = A (ix2 u j) := by
  show A (((cfg0.win 4).blk t).view.emb (ix2 u j)) = _
  rw [emb_bias4]

theorem bias_block6 (c : Dev nD) (A : Buf (Elt Ideal) ((c : Thread nD τ).loc (Pipeline.arrRef spec0 6))) (t : Fin cfg0.N) (u : Fin 1) (j : Fin 64) :
    ((cfg0.win 6).blk t).view.read (Elt Ideal) A (ix2 u j) = A (ix2 u j) := by
  show A (((cfg0.win 6).blk t).view.emb (ix2 u j)) = _
  rw [emb_bias6]

theorem bias_block8 (c : Dev nD) (A : Buf (Elt Ideal) ((c : Thread nD τ).loc (Pipeline.arrRef spec0 8))) (t : Fin cfg0.N) (u : Fin 1) (j : Fin 64) :
    ((cfg0.win 8).blk t).view.read (Elt Ideal) A (ix2 u j) = A (ix2 u j) := by
  show A (((cfg0.win 8).blk t).view.emb (ix2 u j)) = _
  rw [emb_bias8]

/-! ## The arrays the region finds -/

/-- The array that window `w`'s blocks are cut from, as the region finds it. -/
def found (c : Dev nD) (w : Fin cfg0.W) : Buf (Elt Ideal) ((c : Thread nD τ).loc (Pipeline.arrRef spec0 w)) :=
  V m c (Pipeline.arrRef spec0 w)

/-- A window's block at a point is the found array read through the point's rectangle. -/
theorem iblk_eq (c : Dev nD) (w : Fin cfg0.W) (t : Fin cfg0.N) :
    iblk m c w t = ((cfg0.win w).blk t).view.read (Elt Ideal) (found m c w) := rfl

/-- `found`, opened: the region's view of the window's array. -/
theorem found_eq (c : Dev nD) (w : Fin cfg0.W) : found m c w = V m c (Pipeline.arrRef spec0 w) := rfl

attribute [irreducible] found

theorem read_rows0 (c : Dev nD) (t : Fin cfg0.N) (p : Fin 5000) (k : Fin 64) :
    iblk m c 0 t (ix2 p k) = found m c 0 (ix2 (row t p) k) := by
  rw [iblk_eq]; exact rows_block0 c (found m c 0) t p k

theorem read_rows1 (c : Dev nD) (t : Fin cfg0.N) (p : Fin 5000) (k : Fin 64) :
    iblk m c 1 t (ix2 p k) = found m c 1 (ix2 (row t p) k) := by
  rw [iblk_eq]; exact rows_block1 c (found m c 1) t p k

theorem read_rows2 (c : Dev nD) (t : Fin cfg0.N) (p : Fin 5000) (k : Fin 64) :
    iblk m c 2 t (ix2 p k) = found m c 2 (ix2 (row t p) k) := by
  rw [iblk_eq]; exact rows_block2 c (found m c 2) t p k

theorem read_weights3 (c : Dev nD) (t : Fin cfg0.N) (k j : Fin 64) :
    iblk m c 3 t (ix2 k j) = found m c 3 (ix2 k j) := by
  rw [iblk_eq]; exact weights_block3 c (found m c 3) t k j

theorem read_weights5 (c : Dev nD) (t : Fin cfg0.N) (k j : Fin 64) :
    iblk m c 5 t (ix2 k j) = found m c 5 (ix2 k j) := by
  rw [iblk_eq]; exact weights_block5 c (found m c 5) t k j

theorem read_weights7 (c : Dev nD) (t : Fin cfg0.N) (k j : Fin 64) :
    iblk m c 7 t (ix2 k j) = found m c 7 (ix2 k j) := by
  rw [iblk_eq]; exact weights_block7 c (found m c 7) t k j

theorem read_bias4 (c : Dev nD) (t : Fin cfg0.N) (u : Fin 1) (j : Fin 64) :
    iblk m c 4 t (ix2 u j) = found m c 4 (ix2 u j) := by
  rw [iblk_eq]; exact bias_block4 c (found m c 4) t u j

theorem read_bias6 (c : Dev nD) (t : Fin cfg0.N) (u : Fin 1) (j : Fin 64) :
    iblk m c 6 t (ix2 u j) = found m c 6 (ix2 u j) := by
  rw [iblk_eq]; exact bias_block6 c (found m c 6) t u j

theorem read_bias8 (c : Dev nD) (t : Fin cfg0.N) (u : Fin 1) (j : Fin 64) :
    iblk m c 8 t (ix2 u j) = found m c 8 (ix2 u j) := by
  rw [iblk_eq]; exact bias_block8 c (found m c 8) t u j

end Cert.KernelIdeal.Whole

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.BlockEntry.lean ====
/-
  What the kernel body computes, entry by entry.

  The body holds a block of 5000 node rows: the nodes' own rows `x`, their in-neighbour mean rows `a` and their
  out-neighbour mean rows `c`, three 64 × 64 weight matrices and three bias rows.  Each of its three matrix
  products into a zero accumulator is, at entry `(p, j)`, the sum over `k` of row `p` of the left operand
  against column `j` of the right one; the narrowing of the operands to a shorter float format before the
  product is the identity on exact values; a bias row spread over the block's rows holds, at `(p, j)`, the
  row's entry `j`.  So entry `(p, j)` of the body's result is `Entry.entry` of row `p` of `x`, `a` and `c`.
-/
import proofs.«148384_j27152783245350_2_alg».proof.Proof.Gen.KernelIdeal.Skeleton
import proofs.«148384_j27152783245350_2_alg».proof.Proof.Entry
import proofs.«148384_j27152783245350_2_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockEntry

open Cert.KernelIdeal Cert.KernelIdeal.Gen Idealize.ShloMosaic Idealize.ShloMosaic.ValueIdx

/-! ## The matrix product's operand indices -/

theorem dot_lhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem dot_lhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

theorem dot_rhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

theorem dot_rhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block's product with a weight matrix into the zero accumulator, at entry `(p, j)`: row `p` against column `j`. -/
theorem matmul_entry {φ₁ φ₂ : FTy} (l : FVec Ideal S5000x64 φ₁) (r : FVec Ideal S64x64 φ₂) (p : Fin 5000) (j : Fin 64) :
    matmul dot_S5000x64_S64x64_S5000x64_1_0_0_1_n_n none l r (constant (F := Ideal) S5000x64 .f32 0x00000000#32) (ix2 p j)
      = ∑ k : Fin 64, l (ix2 p k) * r (ix2 k j) :=
  Cert.LibDense.matmul_zero_apply dot_S5000x64_S64x64_S5000x64_1_0_0_1_n_n rfl rfl dot_lhs0 dot_lhs1 dot_rhs0 dot_rhs1
    none l r p j

/-! ## The body's result at an entry -/

/-- Entry `(p, j)` of the body's result is the layer's entry `j` for row `p` of the three row blocks. -/
theorem pay_entry (x a c : Vec Ideal S5000x64 .f32) (w₀ w₁ w₂ : Vec Ideal S64x64 .f32) (b₀ b₁ b₂ : Vec Ideal S1x64 .f32)
    (p : Fin 5000) (j : Fin 64) :
    k0_pay1 (F := Ideal) x a c w₀ w₁ w₂ b₀ b₁ b₂ (ix2 p j)
      = Cert.Entry.entry (fun k => x (ix2 p k)) (fun k => a (ix2 p k)) (fun k => c (ix2 p k))
          (fun k j => w₀ (ix2 k j)) (fun k j => w₁ (ix2 k j)) (fun k j => w₂ (ix2 k j))
          (fun j => b₀ (ix2 (0 : Fin 1) j)) (fun j => b₁ (ix2 (0 : Fin 1) j)) (fun j => b₂ (ix2 (0 : Fin 1) j)) j := by
  unfold k0_pay1
  simp only [addf_apply, mulf_apply, broadcast_apply, matmul_entry, shapeCast_self, truncf_apply, broadcastTo_1b_ab_apply]
  rfl

end Cert.KernelIdeal.BlockEntry

end
-- ==== Proof.KernelWhole.lean ====
/-
  From blocks to the whole output array.

  What grid point `t` writes back is the body's result on the point's blocks; entry `(p, j)` of that is the layer's
  entry for row `p` of the blocks, which are rows `5000 t + p` of the arrays: block `t` of `layer` of the arrays the
  region finds.  The 20 blocks tile the 100000 rows (row `P` lies in block `P / 5000`), so after the run the output
  array is `layer` of those arrays.
-/
import proofs.«148384_j27152783245350_2_alg».proof.Proof.BlockRead
import proofs.«148384_j27152783245350_2_alg».proof.Proof.BlockEntry

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What a point writes back, and the whole array -/

/-- What point `t` writes back is block `t` of `layer` of the arrays as the region finds them. -/
theorem flushed_eq (c : Dev nD) (t : Fin cfg0.N) :
    (dats m 0 c).flushed 9 t = ((cfg0.win 9).blk t).view.read (Elt Ideal)
      (layer (found m c 0) (found m c 1) (found m c 2) (found m c 3) (found m c 5) (found m c 7)
        (found m c 4) (found m c 6) (found m c 8)) := by
  rw [Value.flushed9]
  unfold out0_9
  rw [View.canon_unit_zero origin]
  simp only [View.ld_unit_zero (S := S5000x64) origin, View.ld_unit_zero (S := S64x64) origin, View.ld_unit_zero (S := S1x64) origin]
  funext y
  obtain ⟨p, q, rfl⟩ : ∃ (p : Fin 5000) (q : Fin 64), y = ix2 p q := ⟨y 0, y 1, eq_ix2 y⟩
  show k0_pay1 (F := Ideal) (iblk m c 0 t) (iblk m c 1 t) (iblk m c 2 t) (iblk m c 3 t) (iblk m c 5 t) (iblk m c 7 t)
      (iblk m c 4 t) (iblk m c 6 t) (iblk m c 8 t) (ix2 p q)
    = layer (found m c 0) (found m c 1) (found m c 2) (found m c 3) (found m c 5) (found m c 7)
        (found m c 4) (found m c 6) (found m c 8) (((cfg0.win 9).blk t).view.emb (ix2 p q))
  rw [emb_rows9, layer_apply]
  refine (BlockEntry.pay_entry (iblk m c 0 t) (iblk m c 1 t) (iblk m c 2 t) (iblk m c 3 t) (iblk m c 5 t) (iblk m c 7 t)
    (iblk m c 4 t) (iblk m c 6 t) (iblk m c 8 t) p q).trans ?_
  simp only [read_rows0, read_rows1, read_rows2, read_weights3, read_weights5, read_weights7, read_bias4, read_bias6, read_bias8]

/-- An index of the output array is in point `t`'s block iff each coordinate is in the block's range on its axis. -/
theorem mem_block (t : Fin cfg0.N) (i : S100000x64.Idx) :
    i ∈ ((cfg0.win 9).blk t).view.set ↔ ∀ a : Fin 2, win0_9.index t a * S5000x64.size a ≤ (i a).val
      ∧ (i a).val < win0_9.index t a * S5000x64.size a + S5000x64.size a := by
  show i ∈ ((View.whole main_v48).slice (win0_9.rect t)).set ↔ _
  rw [View.set_slice_whole, Rect.mem_set_unit]
  exact Iff.rfl

/-- The blocks tile the array: row `P` lies in the block of point `P / 5000`. -/
theorem covered (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show (i 0).val / 5000 < 20; omega⟩, rfl⟩
  have e := block_index t
  refine ⟨t, flush0_9 t, ?_⟩
  rw [mem_block]
  intro a
  match a with
  | ⟨0, _⟩ =>
    show win0_9.index t (0 : Fin 2) * 5000 ≤ (i 0).val ∧ (i 0).val < win0_9.index t (0 : Fin 2) * 5000 + 5000
    omega
  | ⟨1, _⟩ =>
    show win0_9.index t (1 : Fin 2) * 64 ≤ (i 1).val ∧ (i 1).val < win0_9.index t (1 : Fin 2) * 64 + 64
    omega

/-- After the run the output array is `layer` of the arrays the region found. -/
theorem final (c : Dev nD) :
    (dats m 0 c).arrAt 9 cfg0.N
      = layer (found m c 0) (found m c 1) (found m c 2) (found m c 3) (found m c 5) (found m c 7)
        (found m c 4) (found m c 6) (found m c 8) :=
  (dats m 0 c).arrAt_eq_of_cover 9 _ (fun t _ => flushed_eq m c t) covered

end Cert.KernelIdeal.Whole

end
-- ==== Proof.HostStages.lean ====
/-
  The arrays the region finds that the host wrote.

  Before the region the host forms the two neighbour-mean arrays and views each bias as a row.  The kernel's host
  narrows the features to a shorter float format before gathering rows along the edge list and widens the gathered
  rows again before summing them per node; on exact values both conversions are the identity, so each mean array is
  the very array the reference forms from the features and the edge list: the per-node sum of the gathered rows
  divided by the larger of the per-node edge count and one.  A bias viewed as a row holds, at `(0, j)`, the bias's
  entry `j`.
-/
import proofs.«148384_j27152783245350_2_alg».proof.Proof.Gen.KernelIdeal.Frame
import proofs.«148384_j27152783245350_2_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.HostStages

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The neighbour means -/

set_option maxHeartbeats 8000000 in
/-- The in-neighbour mean array the region finds is the reference's, of the same features and edge list. -/
theorem inMean (c : Dev nD) :
    (V m c main_v24 : S100000x64.Idx → EReal)
      = Cert.ReferenceIdeal.Read.val_main_v22 (F := Ideal) (m ((c : Thread nD τ).loc main_arg0)) (m ((c : Thread nD τ).loc main_arg1)) := by
  dsimp only [Gen.V, Gen.hostOps0]
  after_results_simp
  rfl

set_option maxHeartbeats 8000000 in
/-- The out-neighbour mean array the region finds is the reference's, of the same features and edge list. -/
theorem outMean (c : Dev nD) :
    (V m c main_v44 : S100000x64.Idx → EReal)
      = Cert.ReferenceIdeal.Read.val_main_v41 (F := Ideal) (m ((c : Thread nD τ).loc main_arg0)) (m ((c : Thread nD τ).loc main_arg1)) := by
  dsimp only [Gen.V, Gen.hostOps0]
  after_results_simp
  rfl

/-! ## The bias rows -/

/-- The first bias, viewed as a row, at `(0, j)`. -/
theorem biasRow0 (c : Dev nD) (j : Fin 64) :
    (V m c main_v45 : S1x64.Idx → EReal) (ix2 (0 : Fin 1) j) = m ((c : Thread nD τ).loc main_arg3) (ix1 j) := by
  have e : (V m c main_v45 : S1x64.Idx → EReal)
      = shapeCast S1x64 (m ((c : Thread nD τ).loc main_arg3)) Facts₀.shapeCasts_S64_S1x64 := by
    dsimp only [Gen.V, Gen.hostOps0]; after_results; rfl
  rw [e, shapeCast_a_1a_apply]

/-- The second bias, viewed as a row, at `(0, j)`. -/
theorem biasRow1 (c : Dev nD) (j : Fin 64) :
    (V m c main_v46 : S1x64.Idx → EReal) (ix2 (0 : Fin 1) j) = m ((c : Thread nD τ).loc main_arg5) (ix1 j) := by
  have e : (V m c main_v46 : S1x64.Idx → EReal)
      = shapeCast S1x64 (m ((c : Thread nD τ).loc main_arg5)) Facts₀.shapeCasts_S64_S1x64 := by
    dsimp only [Gen.V, Gen.hostOps0]; after_results; rfl
  rw [e, shapeCast_a_1a_apply]

/-- The third bias, viewed as a row, at `(0, j)`. -/
theorem biasRow2 (c : Dev nD) (j : Fin 64) :
    (V m c main_v47 : S1x64.Idx → EReal) (ix2 (0 : Fin 1) j) = m ((c : Thread nD τ).loc main_arg7) (ix1 j) := by
  have e : (V m c main_v47 : S1x64.Idx → EReal)
      = shapeCast S1x64 (m ((c : Thread nD τ).loc main_arg7)) Facts₀.shapeCasts_S64_S1x64 := by
    dsimp only [Gen.V, Gen.hostOps0]; after_results; rfl
  rw [e, shapeCast_a_1a_apply]

end Cert.KernelIdeal.HostStages

end
-- ==== Proof.RefEntry.lean ====
/-
  What the reference computes, entry by entry.

  The reference forms the in-neighbour and out-neighbour mean arrays `A` and `C` of the node features `x` along
  the edge list, then three whole-array matrix products with their biases, and adds the self term to one half of
  each neighbour term.  Read at entry `(p, j)`, each product is the sum over `k` of row `p` against column `j`
  and each bias spread over the rows holds its entry `j`: the result's entry `(p, j)` is `Entry.entry` of row `p` of
  `x`, `A` and `C`.  The mean arrays themselves are not opened: they enter only through their rows.
-/
import proofs.«148384_j27152783245350_2_alg».proof.Proof.Gen.ReferenceIdeal.Read
import proofs.«148384_j27152783245350_2_alg».proof.Proof.Entry
import Idealize.ShloMosaic.Lib.ValueIdx

noncomputable section

namespace Cert.ReferenceIdeal.RefEntry

open Cert.ReferenceIdeal Cert.ReferenceIdeal.Gen Cert.ReferenceIdeal.Read Idealize.ShloMosaic Idealize.ShloMosaic.ValueIdx

/-! ## The operand indices of the three products and of the bias broadcasts, by coordinates -/

theorem lidx42 (p : Fin 100000) (j k : Fin 64) : lidx_main_v42 (ix2 p j) k = ix2 p k :=
  funext fun a => Fin.ext (by match a with | ⟨0, _⟩ => rfl | ⟨1, _⟩ => rfl)
theorem ridx42 (p : Fin 100000) (j k : Fin 64) : ridx_main_v42 (ix2 p j) k = ix2 k j :=
  funext fun a => Fin.ext (by match a with | ⟨0, _⟩ => rfl | ⟨1, _⟩ => rfl)
theorem lidx46 (p : Fin 100000) (j k : Fin 64) : lidx_main_v46 (ix2 p j) k = ix2 p k :=
  funext fun a => Fin.ext (by match a with | ⟨0, _⟩ => rfl | ⟨1, _⟩ => rfl)
theorem ridx46 (p : Fin 100000) (j k : Fin 64) : ridx_main_v46 (ix2 p j) k = ix2 k j :=
  funext fun a => Fin.ext (by match a with | ⟨0, _⟩ => rfl | ⟨1, _⟩ => rfl)
theorem lidx53 (p : Fin 100000) (j k : Fin 64) : lidx_main_v53 (ix2 p j) k = ix2 p k :=
  funext fun a => Fin.ext (by match a with | ⟨0, _⟩ => rfl | ⟨1, _⟩ => rfl)
theorem ridx53 (p : Fin 100000) (j k : Fin 64) : ridx_main_v53 (ix2 p j) k = ix2 k j :=
  funext fun a => Fin.ext (by match a with | ⟨0, _⟩ => rfl | ⟨1, _⟩ => rfl)
theorem bidx44 (p : Fin 100000) (j : Fin 64) : idx_main_v43 (idx_main_v44 (ix2 p j)) = ix1 j :=
  funext fun a => Fin.ext (by match a with | ⟨0, _⟩ => rfl)
theorem bidx48 (p : Fin 100000) (j : Fin 64) : idx_main_v47 (idx_main_v48 (ix2 p j)) = ix1 j :=
  funext fun a => Fin.ext (by match a with | ⟨0, _⟩ => rfl)
theorem bidx55 (p : Fin 100000) (j : Fin 64) : idx_main_v54 (idx_main_v55 (ix2 p j)) = ix1 j :=
  funext fun a => Fin.ext (by match a with | ⟨0, _⟩ => rfl)

/-! ## The result at an entry -/

/-- Entry `(p, j)` of the reference's result is the layer's entry `j` for row `p` of the features and of the two
    mean arrays. -/
theorem ref_entry (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (p : Fin 100000) (j : Fin 64) :
    val_main_v59 (F := Ideal) x0 x1 x2 x3 x4 x5 x6 x7 (ix2 p j)
      = Cert.Entry.entry (fun k => x0 (ix2 p k)) (fun k => val_main_v22 (F := Ideal) x0 x1 (ix2 p k))
          (fun k => val_main_v41 (F := Ideal) x0 x1 (ix2 p k))
          (fun k j => x2 (ix2 k j)) (fun k j => x4 (ix2 k j)) (fun k j => x6 (ix2 k j))
          (fun j => x3 (ix1 j)) (fun j => x5 (ix1 j)) (fun j => x7 (ix1 j)) j := by
  rw [val_main_v59_apply, val_main_v52_apply, val_main_v45_apply, val_main_v42_apply, val_main_v44_apply, val_main_v43_apply,
    val_main_v51_apply, val_main_v50_apply, val_main_cst_10_apply, val_main_v49_apply, val_main_v46_apply, val_main_v48_apply,
    val_main_v47_apply, val_main_v58_apply, val_main_v57_apply, val_main_cst_11_apply, val_main_v56_apply, val_main_v53_apply,
    val_main_v55_apply, val_main_v54_apply]
  simp only [lidx42, ridx42, lidx46, ridx46, lidx53, ridx53, bidx44, bidx48, bidx55]
  rfl

end Cert.ReferenceIdeal.RefEntry

end
-- ==== Proof.Bridge.lean ====
/-
  The kernel's output array is the reference's result.

  After the run the kernel's output array is `layer` of the arrays the region found: the features and the weight
  matrices as launched, the two neighbour-mean arrays the reference also forms, and the biases viewed as rows.  The
  reference's result, read at an entry, is the same `Entry.entry` of the same rows.  So the two arrays are equal,
  entry by entry; no law of arithmetic is needed beyond reading both sides at an index, and nothing is asked of the
  input values.
-/
import proofs.«148384_j27152783245350_2_alg».proof.Proof.KernelWhole
import proofs.«148384_j27152783245350_2_alg».proof.Proof.HostStages
import proofs.«148384_j27152783245350_2_alg».proof.Proof.RefEntry

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The reference's result as a function of the kernel's launch memory. -/
abbrev result (c : Dev nD) : S100000x64.Idx → EReal :=
  Cert.ReferenceIdeal.Read.val_main_v59 (F := Ideal) (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))

/-- The region's view of a buffer depends only on which buffer it is. -/
theorem V_heq (c : Dev nD) {b b' : Ref sig .tc} (h : b = b') : HEq (V m c b) (V m c b') := by
  subst h; rfl

/-! Each window's array as the region finds it: the launch contents for the features and the weights, the host's
    arrays for the neighbour means and the bias rows. -/

theorem found0 (c : Dev nD) : (Whole.found m c 0 : S100000x64.Idx → EReal) = m ((c : Thread nD τ).loc main_arg0) :=
  ((Whole.found_eq m c 0).trans (eq_of_heq (V_heq m c (b := Pipeline.arrRef spec0 0) (b' := main_arg0) rfl))).trans (V_main_arg0 m c)
theorem found3 (c : Dev nD) : (Whole.found m c 3 : S64x64.Idx → EReal) = m ((c : Thread nD τ).loc main_arg2) :=
  ((Whole.found_eq m c 3).trans (eq_of_heq (V_heq m c (b := Pipeline.arrRef spec0 3) (b' := main_arg2) rfl))).trans (V_main_arg2 m c)
theorem found5 (c : Dev nD) : (Whole.found m c 5 : S64x64.Idx → EReal) = m ((c : Thread nD τ).loc main_arg4) :=
  ((Whole.found_eq m c 5).trans (eq_of_heq (V_heq m c (b := Pipeline.arrRef spec0 5) (b' := main_arg4) rfl))).trans (V_main_arg4 m c)
theorem found7 (c : Dev nD) : (Whole.found m c 7 : S64x64.Idx → EReal) = m ((c : Thread nD τ).loc main_arg6) :=
  ((Whole.found_eq m c 7).trans (eq_of_heq (V_heq m c (b := Pipeline.arrRef spec0 7) (b' := main_arg6) rfl))).trans (V_main_arg6 m c)
theorem found1 (c : Dev nD) : (Whole.found m c 1 : S100000x64.Idx → EReal)
    = Cert.ReferenceIdeal.Read.val_main_v22 (F := Ideal) (m ((c : Thread nD τ).loc main_arg0)) (m ((c : Thread nD τ).loc main_arg1)) :=
  ((Whole.found_eq m c 1).trans (eq_of_heq (V_heq m c (b := Pipeline.arrRef spec0 1) (b' := main_v24) rfl))).trans (HostStages.inMean m c)
theorem found2 (c : Dev nD) : (Whole.found m c 2 : S100000x64.Idx → EReal)
    = Cert.ReferenceIdeal.Read.val_main_v41 (F := Ideal) (m ((c : Thread nD τ).loc main_arg0)) (m ((c : Thread nD τ).loc main_arg1)) :=
  ((Whole.found_eq m c 2).trans (eq_of_heq (V_heq m c (b := Pipeline.arrRef spec0 2) (b' := main_v44) rfl))).trans (HostStages.outMean m c)
theorem found4 (c : Dev nD) (j : Fin 64) :
    (Whole.found m c 4 : S1x64.Idx → EReal) (ix2 (0 : Fin 1) j) = m ((c : Thread nD τ).loc main_arg3) (ix1 j) :=
  (congrFun ((Whole.found_eq m c 4).trans (eq_of_heq (V_heq m c (b := Pipeline.arrRef spec0 4) (b' := main_v45) rfl))) _).trans (HostStages.biasRow0 m c j)
theorem found6 (c : Dev nD) (j : Fin 64) :
    (Whole.found m c 6 : S1x64.Idx → EReal) (ix2 (0 : Fin 1) j) = m ((c : Thread nD τ).loc main_arg5) (ix1 j) :=
  (congrFun ((Whole.found_eq m c 6).trans (eq_of_heq (V_heq m c (b := Pipeline.arrRef spec0 6) (b' := main_v46) rfl))) _).trans (HostStages.biasRow1 m c j)
theorem found8 (c : Dev nD) (j : Fin 64) :
    (Whole.found m c 8 : S1x64.Idx → EReal) (ix2 (0 : Fin 1) j) = m ((c : Thread nD τ).loc main_arg7) (ix1 j) :=
  (congrFun ((Whole.found_eq m c 8).trans (eq_of_heq (V_heq m c (b := Pipeline.arrRef spec0 8) (b' := main_v47) rfl))) _).trans (HostStages.biasRow2 m c j)

/-- `layer` of the arrays the region found is the reference's result of the launch memory, entry by entry. -/
theorem layer_eq_result (c : Dev nD) :
    Whole.layer (Whole.found m c 0) (Whole.found m c 1) (Whole.found m c 2) (Whole.found m c 3) (Whole.found m c 5)
        (Whole.found m c 7) (Whole.found m c 4) (Whole.found m c 6) (Whole.found m c 8)
      = result m c := by
  funext i
  obtain ⟨P, j, rfl⟩ : ∃ (P : Fin 100000) (j : Fin 64), i = ix2 P j := ⟨i 0, i 1, eq_ix2 i⟩
  rw [Whole.layer_apply]
  refine Eq.trans ?_ (Cert.ReferenceIdeal.RefEntry.ref_entry _ _ _ _ _ _ _ _ P j).symm
  simp only [found4, found6, found8]
  rw [found0, found1, found2, found3, found5, found7]

/-- The kernel's run: the output array ends at the reference's result of the launch memory, the arguments unchanged. -/
theorem run : θ_run defs (onTc (τ := τ) (main (F := Ideal))) ⟨m, fun _ => 0, ρ⟩ fun r => ∀ c : Dev nD,
      r.2.mem ((c : Thread nD τ).loc main_v48) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono
    (fun r h c => ⟨(h c).1.trans ((Whole.final m c).trans (layer_eq_result m c)), (h c).2⟩)
    (Cert.KernelIdeal.Value.run_blocks m ρ)

end Cert.KernelIdeal.Bridge

end
-- ==== Proof.lean ====
/-
  A graph layer that adds, to an affine image of each node's features, one half of an affine image of the mean of its
  in-neighbours' features and one half of an affine image of the mean of its out-neighbours' features, computed by a
  kernel over blocks of 5000 nodes and by a whole-array reference: the two end with equal results as extended reals.

  Both programs form the two neighbour-mean arrays on the host in the same way — the rows gathered along the edge
  list, summed per node, divided by the larger of the node's edge count and one; the kernel's host narrows and widens
  the float format around the gather, which is the identity on exact values (Proof/HostStages.lean).  The kernel's body
  then computes, for each of its 5000 rows, entry `j` as `Entry.entry` of the row's three feature rows (its three
  matrix products into zero are the plain sums over the contraction coordinate: Proof/BlockEntry.lean); the 20 blocks
  are rows `5000 t … 5000 t + 4999` of the arrays and tile the output (Proof/BlockPlace.lean, Proof/BlockRead.lean,
  Proof/KernelWhole.lean).  The reference's result at an entry is the same `Entry.entry` of the same rows
  (Proof/RefEntry.lean).  So the kernel's output array is the reference's result of the same arguments
  (Proof/Bridge.lean), in the same grouping of the sums, and nothing is asked of the input values.

  The three frames are the generated frame runs (the reference's, its generated run with the result dropped); the
  idealization rewrote no operation, so its conjunct is trivial.
-/
import proofs.«148384_j27152783245350_2_alg».proof.Defs
import proofs.«148384_j27152783245350_2_alg».proof.Proof.Gen.Kernel
import proofs.«148384_j27152783245350_2_alg».proof.Proof.Gen.Kernel.Skeleton
import proofs.«148384_j27152783245350_2_alg».proof.Proof.Gen.Kernel.Launch
import proofs.«148384_j27152783245350_2_alg».proof.Proof.Gen.Kernel.Points
import proofs.«148384_j27152783245350_2_alg».proof.Proof.Gen.Kernel.Frame
import proofs.«148384_j27152783245350_2_alg».proof.Proof.Gen.KernelIdeal
import proofs.«148384_j27152783245350_2_alg».proof.Proof.Gen.KernelIdeal.Skeleton
import proofs.«148384_j27152783245350_2_alg».proof.Proof.Gen.KernelIdeal.Launch
import proofs.«148384_j27152783245350_2_alg».proof.Proof.Gen.KernelIdeal.Points
import proofs.«148384_j27152783245350_2_alg».proof.Proof.Gen.KernelIdeal.Frame
import proofs.«148384_j27152783245350_2_alg».proof.Proof.Gen.ReferenceIdeal
import proofs.«148384_j27152783245350_2_alg».proof.Proof.Gen.KernelIdeal.Value
import proofs.«148384_j27152783245350_2_alg».proof.Proof.Gen.ReferenceIdeal.Run
import proofs.«148384_j27152783245350_2_alg».proof.Proof.Gen.ReferenceIdeal.Read
import proofs.«148384_j27152783245350_2_alg».proof.Proof.Gen.Pre_finite_inputs
import proofs.«148384_j27152783245350_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's output array and the reference's result both end at the
    reference's term of the kernel's arguments. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6, h7⟩ := hagree c
  rw [(h c).1, Cert.ReferenceIdeal.Read.val_main_v59_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
